-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S5000 : Shape := ⟨1, ![5000]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 87
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x64, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x1 : Shape := ⟨2, ![50000, 1]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x64, .f32⟩
  | 6 => ⟨S64, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .i1⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S850000x1, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x128, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x64, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S850000x1, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x64, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S1x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its result named. @main is seven segments — three stretches of host
  operations, the first tiled region, a stretch, the second tiled region, a last stretch — and the buffer contents at
  every segment boundary are a fold from the launch memory (a stretch applies its operations; a region replaces its
  arrays by what its write-backs leave). Every weakly fair execution terminates without a fault with every unscoped
  buffer at the last boundary's contents; read at the result buffer this gives the result as the fold's value there,
  and read at the arguments it gives them back unchanged.
-/
import proofs.«107329_j9895604650407_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the last boundary's
    contents and the seven argument arrays as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Glue.lean ====
/-
  The host stages the kernel program and the reference share, each as ONE definition over the printed operations:
  the edge lists with the self loops appended (`row`, `col`), the edge weights with a one per self loop (`ewx`),
  the degree of a node as the sum of the weights of the edges arriving at it (`deg`), its inverse square root
  where the degree is positive and zero elsewhere (`dinv`), a negative index wrapped once by the number of nodes
  (`wrap`), the symmetric normalisation of an edge `dinv[row] · w · dinv[col]` (`norm`), and the aggregation of a
  feature matrix along the edges: every edge's source row scaled by the edge's coefficient and added into the edge's
  target row (`agg128Of`; `outOf` is the same on 64 columns with the output bias added). The two programs differ
  only in where the two dense stages between these are computed, so these definitions are never opened: each
  side is shown to be these functions of its own dense stages, and the dense stages are compared on their own.
-/
import proofs.«107329_j9895604650407_1_alg».proof.KernelIdeal
import proofs.«107329_j9895604650407_1_alg».proof.Proof.Gen.KernelIdeal

noncomputable section

open Idealize.ShloMosaic Cert.KernelIdeal Cert.KernelIdeal.Facts₀ Cert.KernelIdeal.Facts

namespace Cert.Glue

variable {F : FTy → Type} [FloatOps F]

/-- The source node of every edge: row 0 of the edge list, then the self loops `0 … 49999`. -/
def row (ei : (⟨S2x800000, .i32⟩ : BufTy).Contents (Elt F)) : (⟨S850000, .i32⟩ : BufTy).Contents (Elt F) :=
  (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)

/-- The target node of every edge: row 1 of the edge list, then the self loops. -/
def col (ei : (⟨S2x800000, .i32⟩ : BufTy).Contents (Elt F)) : (⟨S850000, .i32⟩ : BufTy).Contents (Elt F) :=
  (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)

/-- The weight of every edge: the given weights, then a one per self loop. -/
def ewx (ew : (⟨S800000, .f32⟩ : BufTy).Contents (Elt F)) : (⟨S850000, .f32⟩ : BufTy).Contents (Elt F) :=
  (concatenate S850000 0 [⟨S800000, ew⟩, ⟨S50000, (broadcastInDim S50000 ![] bcast_S_S50000 (constant S_ .f32 0x3F800000#32))⟩] concatenates_S800000_S50000_S850000_d0)

/-- The degree of each node: the weights of the edges arriving at it, added up from zero. -/
def deg (ei : (⟨S2x800000, .i32⟩ : BufTy).Contents (Elt F)) (ew : (⟨S800000, .f32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (col ei)) (ewx ew)

/-- The inverse square root of the degree where the degree is positive, zero elsewhere. -/
def dinv (ei : (⟨S2x800000, .i32⟩ : BufTy).Contents (Elt F)) (ew : (⟨S800000, .f32⟩ : BufTy).Contents (Elt F)) : (⟨S50000, .f32⟩ : BufTy).Contents (Elt F) :=
  select (cmpf .ogt (deg ei ew) (broadcastInDim S50000 ![] bcast_S_S50000 (constant S_ .f32 0x00000000#32))) (Host.rsqrt (deg ei ew)) (broadcastInDim S50000 ![] bcast_S_S50000 (id (constant S_ .f32 0x00000000#32)))

/-- A negative node index wrapped once by the number of nodes; any other index as it is. -/
def wrap (x : (⟨S850000, .i32⟩ : BufTy).Contents (Elt F)) : (⟨S850000, .i32⟩ : BufTy).Contents (Elt F) :=
  select (cmpi .slt x (broadcastInDim S850000 ![] bcast_S_S850000 (constantI S_ 32 0#32))) (addi x (broadcastInDim S850000 ![] bcast_S_S850000 (constantI S_ 32 50000#32))) x

/-- The coefficient of every edge: `dinv` at its source, times its weight, times `dinv` at its target. -/
def norm (ei : (⟨S2x800000, .i32⟩ : BufTy).Contents (Elt F)) (ew : (⟨S800000, .f32⟩ : BufTy).Contents (Elt F)) : (⟨S850000, .f32⟩ : BufTy).Contents (Elt F) :=
  mulf (mulf (Host.gather gather_S50000_S850000x1_S850000_n_0_n_n_0_1_1 (dinv ei ew) (broadcastInDim S850000x1 ![0] bcast_S850000_S850000x1_0 (wrap (row ei)))) (ewx ew)) (Host.gather gather_S50000_S850000x1_S850000_n_0_n_n_0_1_1 (dinv ei ew) (broadcastInDim S850000x1 ![0] bcast_S850000_S850000x1_0 (wrap (col ei))))

/-- The aggregation of a 128-column feature matrix `h` along the edges, from the targets `cl`, the coefficients `nrm`
    and the sources `rw`: from zero, every edge adds its coefficient times row `rw` of `h` into row `cl`. -/
def agg128Of (cl : (⟨S850000, .i32⟩ : BufTy).Contents (Elt F)) (nrm : (⟨S850000, .f32⟩ : BufTy).Contents (Elt F)) (rw : (⟨S850000, .i32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 cl) (mulf (broadcastInDim S850000x128 ![0, 1] bcast_S850000x1_S850000x128_0_1 (broadcastInDim S850000x1 ![0] bcast_S850000_S850000x1_0 nrm)) (Host.gather gather_S50000x128_S850000x1_S850000x128_1_0_n_n_0_1_1128 h (broadcastInDim S850000x1 ![0] bcast_S850000_S850000x1_0 (wrap rw))))

/-- The same aggregation of a 64-column feature matrix, with the bias `b` added to every row. -/
def outOf (cl : (⟨S850000, .i32⟩ : BufTy).Contents (Elt F)) (nrm : (⟨S850000, .f32⟩ : BufTy).Contents (Elt F)) (rw : (⟨S850000, .i32⟩ : BufTy).Contents (Elt F)) (h : (⟨S50000x64, .f32⟩ : BufTy).Contents (Elt F)) (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 cl) (mulf (broadcastInDim S850000x64 ![0, 1] bcast_S850000x1_S850000x64_0_1 (broadcastInDim S850000x1 ![0] bcast_S850000_S850000x1_0 nrm)) (Host.gather gather_S50000x64_S850000x1_S850000x64_1_0_n_n_0_1_164 h (broadcastInDim S850000x1 ![0] bcast_S850000_S850000x1_0 (wrap rw))))) (broadcastInDim S50000x64 ![0, 1] bcast_S1x64_S50000x64_0_1 (broadcastInDim S1x64 ![1] bcast_S64_S1x64_1 b))

end Cert.Glue

end
-- ==== Proof.KernelGlue.lean ====
/-
  The kernel program's host side, read as the shared glue functions.

  Between the launch and the return the program runs three stretches of host operations around two regions. Each
  stretch only composes pure functions of the buffers it reads, and each region changes only its own arrays, so the
  contents of any one buffer at any boundary are a closed term over the launch memory and the two regions' results.
  This module names those terms at the buffers the rest of the proof reads:

  * at region 0's entry its two input arrays hold what was launched;
  * at region 1's entry its first input holds the aggregation along the edges (targets `col`, coefficients `norm`,
    sources `row`) of region 0's result, its second the launched bias viewed as a one-row matrix (entry `(0, k)` is
    entry `k`), its third what was launched;
  * the program's result is the same aggregation, on 64 columns with the output bias added, of region 1's result.

  The edge lists, weights and coefficients are computed before region 0 and written by nothing afterwards, so they
  reach both aggregations unchanged. Every stretch is crossed from ARBITRARY contents `V` (the composition of its
  operations is the glue function by definition), and every region by the two facts "its arrays hold what the pipeline
  leaves" and "every other buffer is as entered"; no glue function is ever opened.
-/
import proofs.«107329_j9895604650407_1_alg».proof.Proof.Gen.KernelIdeal.Frame
import proofs.«107329_j9895604650407_1_alg».proof.Proof.Glue
import Idealize.ShloMosaic.Lib.StableHlo.Run
import Idealize.ShloMosaic.Lib.Pipeline.Value
import Idealize.ShloMosaic.Lib.ValueIdx

set_option maxRecDepth 16384

noncomputable section

namespace Cert.KernelIdeal.KGlue

open Idealize.ShloMosaic Idealize.ShloMosaic.TcCoe Idealize.ShloMosaic.Tactic
open Idealize.ShloMosaic.StableHlo
open Cert.KernelIdeal Cert.KernelIdeal.Gen Cert.KernelIdeal.Facts₀ Cert.KernelIdeal.Facts

variable {F : FTy → Type} [FloatOps F]
variable (m : (ℓ : Loc nD τ sig) → Buf (Elt F) ℓ) (ρ : Dev nD → PrngReg)

/-! ## From the launch to region 0 (no region in between: `W3` is three stretches folded over the launch memory) -/

/-- The sources of the edges, as region 0 finds them. -/
theorem W3_main_v3 (c : Dev nD) :
    W3 m ρ c (Proc.devRef .tc main_v3) = Cert.Glue.row (m ((c : Thread nD τ).loc main_arg1)) := by
  dsimp only [W3, W2, W1, hostOps0_2, hostOps0_1, hostOps0]
  after_results_simp
  rfl

/-- The targets of the edges. -/
theorem W3_main_v6 (c : Dev nD) :
    W3 m ρ c (Proc.devRef .tc main_v6) = Cert.Glue.col (m ((c : Thread nD τ).loc main_arg1)) := by
  dsimp only [W3, W2, W1, hostOps0_2, hostOps0_1, hostOps0]
  after_results_simp
  rfl

/-- The coefficients of the edges. -/
theorem W3_main_v31 (c : Dev nD) :
    W3 m ρ c (Proc.devRef .tc main_v31)
      = Cert.Glue.norm (m ((c : Thread nD τ).loc main_arg1)) (m ((c : Thread nD τ).loc main_arg2)) := by
  dsimp only [W3, W2, W1, hostOps0_2, hostOps0_1, hostOps0]
  after_results_simp
  rfl

/-- No operation before region 0 writes an argument. -/
theorem W3_main_arg0 (c : Dev nD) :
    W3 m ρ c (Proc.devRef .tc main_arg0) = m ((c : Thread nD τ).loc main_arg0) := by
  dsimp only [W3, W2, W1, hostOps0_2, hostOps0_1, hostOps0]
  after_results_simp
theorem W3_main_arg3 (c : Dev nD) :
    W3 m ρ c (Proc.devRef .tc main_arg3) = m ((c : Thread nD τ).loc main_arg3) := by
  dsimp only [W3, W2, W1, hostOps0_2, hostOps0_1, hostOps0]
  after_results_simp
theorem W3_main_arg4 (c : Dev nD) :
    W3 m ρ c (Proc.devRef .tc main_arg4) = m ((c : Thread nD τ).loc main_arg4) := by
  dsimp only [W3, W2, W1, hostOps0_2, hostOps0_1, hostOps0]
  after_results_simp
theorem W3_main_arg5 (c : Dev nD) :
    W3 m ρ c (Proc.devRef .tc main_arg5) = m ((c : Thread nD τ).loc main_arg5) := by
  dsimp only [W3, W2, W1, hostOps0_2, hostOps0_1, hostOps0]
  after_results_simp
theorem W3_main_arg6 (c : Dev nD) :
    W3 m ρ c (Proc.devRef .tc main_arg6) = m ((c : Thread nD τ).loc main_arg6) := by
  dsimp only [W3, W2, W1, hostOps0_2, hostOps0_1, hostOps0]
  after_results_simp

/-! ## (1) Region 0's inputs as it finds them -/

theorem V3_main_arg0 (c : Dev nD) : V3 m ρ c main_arg0 = m ((c : Thread nD τ).loc main_arg0) := W3_main_arg0 m ρ c
theorem V3_main_arg3 (c : Dev nD) : V3 m ρ c main_arg3 = m ((c : Thread nD τ).loc main_arg3) := W3_main_arg3 m ρ c

/-! ## Across region 0: it owns `main_arg0`, `main_arg3` and `main_v32` only -/

theorem W4_main_v3 (c : Dev nD) :
    W4 m ρ c (Proc.devRef .tc main_v3) = Cert.Glue.row (m ((c : Thread nD τ).loc main_arg1)) :=
  (W4_of_ne m ρ c main_v3 (by decide)).trans (W3_main_v3 m ρ c)
theorem W4_main_v6 (c : Dev nD) :
    W4 m ρ c (Proc.devRef .tc main_v6) = Cert.Glue.col (m ((c : Thread nD τ).loc main_arg1)) :=
  (W4_of_ne m ρ c main_v6 (by decide)).trans (W3_main_v6 m ρ c)
theorem W4_main_v31 (c : Dev nD) :
    W4 m ρ c (Proc.devRef .tc main_v31)
      = Cert.Glue.norm (m ((c : Thread nD τ).loc main_arg1)) (m ((c : Thread nD τ).loc main_arg2)) :=
  (W4_of_ne m ρ c main_v31 (by decide)).trans (W3_main_v31 m ρ c)
theorem W4_main_arg4 (c : Dev nD) :
    W4 m ρ c (Proc.devRef .tc main_arg4) = m ((c : Thread nD τ).loc main_arg4) :=
  (W4_of_ne m ρ c main_arg4 (by decide)).trans (W3_main_arg4 m ρ c)
theorem W4_main_arg5 (c : Dev nD) :
    W4 m ρ c (Proc.devRef .tc main_arg5) = m ((c : Thread nD τ).loc main_arg5) :=
  (W4_of_ne m ρ c main_arg5 (by decide)).trans (W3_main_arg5 m ρ c)
theorem W4_main_arg6 (c : Dev nD) :
    W4 m ρ c (Proc.devRef .tc main_arg6) = m ((c : Thread nD τ).loc main_arg6) :=
  (W4_of_ne m ρ c main_arg6 (by decide)).trans (W3_main_arg6 m ρ c)
/-- Region 0's output array at its exit: what the pipeline leaves. -/
theorem W4_main_v32 (c : Dev nD) :
    W4 m ρ c (Proc.devRef .tc main_v32) = (dat0 (V3 m ρ) c).arrAt 2 cfg0.N :=
  W4_arr m ρ c 2

/-! ## Across the stretch between the regions, from any contents `V` -/

/-- The first aggregation: the stretch's sixteen operations up to `main_v45` compose to `agg128Of`. -/
theorem hostOps1_main_v45 (V : Valuation τ sig (Elt F)) :
    StableHlo.after hostOps1 V (Proc.devRef .tc main_v45)
      = Cert.Glue.agg128Of (V (Proc.devRef .tc main_v6)) (V (Proc.devRef .tc main_v31)) (V (Proc.devRef .tc main_v3))
          (V (Proc.devRef .tc main_v32)) := by
  dsimp only [hostOps1]
  after_results_simp
  rfl

/-- The bias of the second dense stage, as a one-row matrix. -/
theorem hostOps1_main_v46 (V : Valuation τ sig (Elt F)) :
    StableHlo.after hostOps1 V (Proc.devRef .tc main_v46)
      = shapeCast S1x128 (V (Proc.devRef .tc main_arg4)) Gen.shapeCasts_S128_S1x128 := by
  dsimp only [hostOps1]
  after_results_simp
  rfl

/-- What the stretch does not write passes through. -/
theorem hostOps1_main_arg5 (V : Valuation τ sig (Elt F)) :
    StableHlo.after hostOps1 V (Proc.devRef .tc main_arg5) = V (Proc.devRef .tc main_arg5) := by
  dsimp only [hostOps1]
  after_results_simp
theorem hostOps1_main_arg6 (V : Valuation τ sig (Elt F)) :
    StableHlo.after hostOps1 V (Proc.devRef .tc main_arg6) = V (Proc.devRef .tc main_arg6) := by
  dsimp only [hostOps1]
  after_results_simp
theorem hostOps1_main_v3 (V : Valuation τ sig (Elt F)) :
    StableHlo.after hostOps1 V (Proc.devRef .tc main_v3) = V (Proc.devRef .tc main_v3) := by
  dsimp only [hostOps1]
  after_results_simp
theorem hostOps1_main_v6 (V : Valuation τ sig (Elt F)) :
    StableHlo.after hostOps1 V (Proc.devRef .tc main_v6) = V (Proc.devRef .tc main_v6) := by
  dsimp only [hostOps1]
  after_results_simp
theorem hostOps1_main_v31 (V : Valuation τ sig (Elt F)) :
    StableHlo.after hostOps1 V (Proc.devRef .tc main_v31) = V (Proc.devRef .tc main_v31) := by
  dsimp only [hostOps1]
  after_results_simp

/-! ## (2) Region 1's inputs as it finds them -/

/-- The first aggregation of region 0's result along the edges. -/
theorem V5_main_v45 (c : Dev nD) :
    V5 m ρ c main_v45
      = Cert.Glue.agg128Of (Cert.Glue.col (m ((c : Thread nD τ).loc main_arg1)))
          (Cert.Glue.norm (m ((c : Thread nD τ).loc main_arg1)) (m ((c : Thread nD τ).loc main_arg2)))
          (Cert.Glue.row (m ((c : Thread nD τ).loc main_arg1))) ((dat0 (V3 m ρ) c).arrAt 2 cfg0.N) := by
  show StableHlo.after hostOps1 (W4 m ρ c) (Proc.devRef .tc main_v45) = _
  rw [hostOps1_main_v45, W4_main_v6, W4_main_v31, W4_main_v3, W4_main_v32]

/-- The bias of the second dense stage is the launch's, reshaped to one row. -/
theorem V5_main_v46 (c : Dev nD) :
    V5 m ρ c main_v46 = shapeCast S1x128 (m ((c : Thread nD τ).loc main_arg4)) Gen.shapeCasts_S128_S1x128 := by
  show StableHlo.after hostOps1 (W4 m ρ c) (Proc.devRef .tc main_v46) = _
  rw [hostOps1_main_v46, W4_main_arg4]

/-- The same, entry by entry. -/
theorem V5_main_v46_apply (c : Dev nD) (k : Fin 128) :
    (V5 m ρ c main_v46 : (⟨S1x128, .f32⟩ : BufTy).Contents (Elt F)) (ValueIdx.ix2 (0 : Fin 1) k)
      = (m ((c : Thread nD τ).loc main_arg4) : (⟨S128, .f32⟩ : BufTy).Contents (Elt F)) (ValueIdx.ix1 k) := by
  rw [V5_main_v46]
  exact shapeCast_apply _ Gen.shapeCasts_S128_S1x128 (ValueIdx.ix2 (0 : Fin 1) k) (ValueIdx.ix1 k) (by
    rw [Shape.rowMajor_val_one, Shape.rowMajor_val_two]
    show k.val = 0 * 128 + k.val
    omega)

theorem V5_main_arg5 (c : Dev nD) : V5 m ρ c main_arg5 = m ((c : Thread nD τ).loc main_arg5) := by
  show StableHlo.after hostOps1 (W4 m ρ c) (Proc.devRef .tc main_arg5) = _
  rw [hostOps1_main_arg5, W4_main_arg5]

/-! ## Across region 1: it owns `main_v45`, `main_v46`, `main_arg5` and `main_v47` only -/

theorem W6_main_v3 (c : Dev nD) :
    W6 m ρ c (Proc.devRef .tc main_v3) = Cert.Glue.row (m ((c : Thread nD τ).loc main_arg1)) :=
  (W6_of_ne m ρ c main_v3 (by decide)).trans ((hostOps1_main_v3 _).trans (W4_main_v3 m ρ c))
theorem W6_main_v6 (c : Dev nD) :
    W6 m ρ c (Proc.devRef .tc main_v6) = Cert.Glue.col (m ((c : Thread nD τ).loc main_arg1)) :=
  (W6_of_ne m ρ c main_v6 (by decide)).trans ((hostOps1_main_v6 _).trans (W4_main_v6 m ρ c))
theorem W6_main_v31 (c : Dev nD) :
    W6 m ρ c (Proc.devRef .tc main_v31)
      = Cert.Glue.norm (m ((c : Thread nD τ).loc main_arg1)) (m ((c : Thread nD τ).loc main_arg2)) :=
  (W6_of_ne m ρ c main_v31 (by decide)).trans ((hostOps1_main_v31 _).trans (W4_main_v31 m ρ c))
theorem W6_main_arg6 (c : Dev nD) :
    W6 m ρ c (Proc.devRef .tc main_arg6) = m ((c : Thread nD τ).loc main_arg6) :=
  (W6_of_ne m ρ c main_arg6 (by decide)).trans ((hostOps1_main_arg6 _).trans (W4_main_arg6 m ρ c))
/-- Region 1's output array at its exit: what the pipeline leaves. -/
theorem W6_main_v47 (c : Dev nD) :
    W6 m ρ c (Proc.devRef .tc main_v47) = (dat1 (V5 m ρ) c).arrAt 3 cfg1.N :=
  W6_arr m ρ c 3

/-! ## (3) The result -/

/-- The last stretch's nineteen operations compose to `outOf`, from any contents `V`. -/
theorem hostOps2_main_v63 (V : Valuation τ sig (Elt F)) :
    StableHlo.after hostOps2 V (Proc.devRef .tc main_v63)
      = Cert.Glue.outOf (V (Proc.devRef .tc main_v6)) (V (Proc.devRef .tc main_v31)) (V (Proc.devRef .tc main_v3))
          (V (Proc.devRef .tc main_v47)) (V (Proc.devRef .tc main_arg6)) := by
  dsimp only [hostOps2]
  after_results_simp
  rfl

/-- The program's result: the second aggregation, of region 1's result, with the output bias added. -/
theorem W7_main_v63 (c : Dev nD) :
    W7 m ρ c (Proc.devRef .tc main_v63)
      = Cert.Glue.outOf (Cert.Glue.col (m ((c : Thread nD τ).loc main_arg1)))
          (Cert.Glue.norm (m ((c : Thread nD τ).loc main_arg1)) (m ((c : Thread nD τ).loc main_arg2)))
          (Cert.Glue.row (m ((c : Thread nD τ).loc main_arg1))) ((dat1 (V5 m ρ) c).arrAt 3 cfg1.N)
          (m ((c : Thread nD τ).loc main_arg6)) := by
  show StableHlo.after hostOps2 (W6 m ρ c) (Proc.devRef .tc main_v63) = _
  rw [hostOps2_main_v63, W6_main_v6, W6_main_v31, W6_main_v3, W6_main_v47, W6_main_arg6]

end Cert.KernelIdeal.KGlue

end
-- ==== Proof.Spec.lean ====
/-
  The two dense stages of the two-layer graph convolution, each as ONE index-by-index function on the extended
  reals. Stage one is a row softmax followed by a matrix product: row `r` of `x` is shifted by the larger of −∞ and
  its maximum, exponentiated, divided by the sum of the row's exponentials, and entry `(r, c)` of the result is
  the sum over `k` of that weight at `(r, k)` times `w (k, c)`. Stage two adds a bias row, takes the maximum with
  zero, and multiplies by a second matrix. Both the tiled kernel regions and the reference's host operations are
  shown equal to these functions; nothing here depends on either program.
-/
import Idealize.ShloMosaic.PureOps.Ideal
import Idealize.ShloMosaic.Lib.ValueIdx

noncomputable section

open Idealize.ShloMosaic Idealize.ShloMosaic.ValueIdx

namespace Cert.Spec

/-- The shift of row `r`: the larger of −∞ and the row's maximum, the maximum taken as a fold of `max` from −∞ over the
    128 columns. -/
def rowShift (x : FVec Ideal ⟨2, ![50000, 128]⟩ .f32) (r : Fin 50000) : EReal :=
  max (Ideal.ofBits .f32 0xFF800000#32)
    ((Finset.univ : Finset (Fin 128)).fold max (Ideal.ofBits .f32 0xFF800000#32) fun j => x (ix2 r j))

/-- `exp (x (r, k) − shift r)`. -/
def expShift (x : FVec Ideal ⟨2, ![50000, 128]⟩ .f32) (r : Fin 50000) (k : Fin 128) : EReal :=
  Ideal.exp (x (ix2 r k) - rowShift x r)

/-- The softmax weight of entry `(r, k)`: its shifted exponential over the sum of the row's shifted exponentials. -/
def soft (x : FVec Ideal ⟨2, ![50000, 128]⟩ .f32) (r : Fin 50000) (k : Fin 128) : EReal :=
  Ideal.div (expShift x r k) (∑ j : Fin 128, expShift x r j)

/-- Stage one: `softmax(x) · w`, entry `(r, c)` the sum over `k` of the weight at `(r, k)` times `w (k, c)`. -/
def softmaxMatmul (x : FVec Ideal ⟨2, ![50000, 128]⟩ .f32) (w : FVec Ideal ⟨2, ![128, 128]⟩ .f32) :
    FVec Ideal ⟨2, ![50000, 128]⟩ .f32 :=
  fun i => ∑ k : Fin 128, soft x (i 0) k * w (ix2 k (i 1))

/-- Stage two: `max (a + b, 0) · w`, the bias `b` one value per column of `a`. -/
def reluBiasMatmul (a : FVec Ideal ⟨2, ![50000, 128]⟩ .f32) (b : Fin 128 → EReal) (w : FVec Ideal ⟨2, ![128, 64]⟩ .f32) :
    FVec Ideal ⟨2, ![50000, 64]⟩ .f32 :=
  fun i => ∑ k : Fin 128, max (a (ix2 (i 0) k) + b k) (Ideal.ofBits .f32 0x00000000#32) * w (ix2 k (i 1))

end Cert.Spec

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Region0.lean ====
/-
  The first tiled stage of the two-layer graph convolution, read as one function of its two input arrays.

  The stage walks the 50000 × 128 array `x` in ten blocks of 5000 rows. On a block it shifts every row by the larger of −∞ and the
  row's maximum, exponentiates, divides each entry by the sum of its row's exponentials, and multiplies the resulting weights by the
  whole 128 × 128 matrix `w`. Three facts make the ten results one array. First, at an entry `(p, q)` of a block the body's value
  is `∑ k, weight (p, k) · w (k, q)`: the lane maximum and the lane sum are a fold and a sum over the 128 columns of row `p`, a
  per-row value kept as a column and spread over the lanes is read back at its row, the change of number format on the way into the
  product is the identity on extended reals, and a product into a zero accumulator is the bare sum over the contracted coordinate.
  Second, a row's shift and its sum of exponentials depend on that row alone, so the weights of row `p` of block `t` are the weights of
  row `5000 t + p` of the whole array: a block's coordinate in the array is always the block index times the block size plus the
  coordinate inside the block, the rows window and the output window sit at block `(t, 0)` and the matrix window at block `(0, 0)`.
  Third, row `r` lies in the block of point `r / 5000` and every point writes its block back, so the blocks cover the array.
  Together: after the ten points the output array is `softmax(x) · w`, entry by entry.
-/
import proofs.«107329_j9895604650407_1_alg».proof.Proof.Gen.KernelIdeal.Frame
import proofs.«107329_j9895604650407_1_alg».proof.Proof.Spec
import proofs.«107329_j9895604650407_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open Cert.KernelIdeal Cert.KernelIdeal.Gen

namespace Cert.KernelIdeal.Region0

/-! ## The matrix product at an entry -/

/-- The operand indices of the block's matrix product: at output entry `i` and contraction coordinate `q`, the left operand is read
    at row `i 0`, column `q`, and the right operand at row `q`, column `i 1`. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a 5000 × 128 block with a 128 × 128 matrix into a zero accumulator: entry `(p, q)` is the sum over
    `k` of the left operand at `(p, k)` times the right operand at `(k, q)`. -/
theorem matmul_zero_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic at an entry of a block -/

/-- The shift of row `p` of a block of rows: the larger of −∞ and the row's maximum. -/
def blockShift (x0 : FVec Ideal S5000x128 .f32) (p : Fin 5000) : EReal :=
  max (Ideal.ofBits .f32 0xFF800000#32)
    ((Finset.univ : Finset (Fin 128)).fold max (Ideal.ofBits .f32 0xFF800000#32) fun j => x0 (ix2 p j))

/-- The shifted exponential of entry `(p, k)` of a block. -/
def blockExp (x0 : FVec Ideal S5000x128 .f32) (p : Fin 5000) (k : Fin 128) : EReal :=
  Ideal.exp (x0 (ix2 p k) - blockShift x0 p)

/-- The softmax weight of entry `(p, k)` of a block: its shifted exponential over the sum of the row's. -/
def blockSoft (x0 : FVec Ideal S5000x128 .f32) (p : Fin 5000) (k : Fin 128) : EReal :=
  Ideal.div (blockExp x0 p k) (∑ j : Fin 128, blockExp x0 p j)

/-- A per-row value kept as a column and spread over the 128 lanes reads, at `(p, k)`, the value of row `p`. -/
theorem column_spread_apply (v : FVec Ideal S5000 .f32) (p : Fin 5000) (k : Fin 128) :
    broadcastTo S5000x128 (shapeCast S5000x1 v shapeCasts_S5000_S5000x1) broadcasts_S5000x1_S5000x128 (ix2 p k) = v (ix1 p) :=
  (Cert.Lib.broadcastTo_a1_ab_apply (shapeCast S5000x1 v shapeCasts_S5000_S5000x1) broadcasts_S5000x1_S5000x128 p k).trans
    (Cert.Lib.shapeCast_a_a1_apply v shapeCasts_S5000_S5000x1 p (0 : Fin 1))

/-- The maximum of a −∞ splat and a vector of row values, at row `p`. -/
theorem max_splat_apply (v : FVec Ideal S5000 .f32) (p : Fin 5000) :
    maximumf (broadcast S5000 (FloatOps.ofBits (F := Ideal) .f32 0xFF800000#32)) v (ix1 p)
      = max (Ideal.ofBits .f32 0xFF800000#32) (v (ix1 p)) := rfl

/-- The exponential of a difference of two blocks, at an entry. -/
theorem exp_sub_apply (a b : FVec Ideal S5000x128 .f32) (i : S5000x128.Idx) :
    exp (subf a b) i = Ideal.exp (a i - b i) := rfl

/-- The quotient of two blocks read in the narrower format, at an entry: the quotient of the entries. -/
theorem narrow_div_apply (a b : FVec Ideal S5000x128 .f32) (h : FTy.bf16.bits < FTy.f32.bits) (i : S5000x128.Idx) :
    (truncf .bf16 (divf a b) h : FVec Ideal S5000x128 .bf16) i = Ideal.div (a i) (b i) := rfl

/-- A matrix read in the narrower format, at an entry: the entry. -/
theorem narrow_apply (w : FVec Ideal S128x128 .f32) (h : FTy.bf16.bits < FTy.f32.bits) (i : S128x128.Idx) :
    (truncf .bf16 w h : FVec Ideal S128x128 .bf16) i = w i := rfl

/-- The body's row shift: the lane maximum from −∞, then the maximum with a −∞ splat. -/
theorem shift_apply (x0 : FVec Ideal S5000x128 .f32) (hφ : FKind.Formats .f32)
    (hacc : (0xFF800000#32 : BitVec 32) = 0xFF800000#32) (p : Fin 5000) :
    maximumf (broadcast S5000 (FloatOps.ofBits (F := Ideal) .f32 0xFF800000#32))
        (multiReduction .maximumf [1] S5000 x0 0xFF800000#32 reduces_S5000x128_S5000 hφ hacc) (ix1 p)
      = blockShift x0 p :=
  (max_splat_apply _ p).trans
    (congrArg (max (Ideal.ofBits .f32 0xFF800000#32)) (Cert.Lib.multiReduction_max_row x0 reduces_S5000x128_S5000 hφ hacc p))

/-- The body's shifted exponentials: each entry minus its row's shift, spread over the lanes, exponentiated. -/
theorem exp_entry (x0 : FVec Ideal S5000x128 .f32) (hφ : FKind.Formats .f32)
    (hacc : (0xFF800000#32 : BitVec 32) = 0xFF800000#32) (p : Fin 5000) (k : Fin 128) :
    exp (subf x0 (broadcastTo S5000x128 (shapeCast S5000x1
        (maximumf (broadcast S5000 (FloatOps.ofBits (F := Ideal) .f32 0xFF800000#32))
          (multiReduction .maximumf [1] S5000 x0 0xFF800000#32 reduces_S5000x128_S5000 hφ hacc))
        shapeCasts_S5000_S5000x1) broadcasts_S5000x1_S5000x128)) (ix2 p k)
      = blockExp x0 p k :=
  (exp_sub_apply x0 _ (ix2 p k)).trans
    (congrArg (fun s => Ideal.exp (x0 (ix2 p k) - s)) ((column_spread_apply _ p k).trans (shift_apply x0 hφ hacc p)))

/-- THE BODY'S RESULT AT AN ENTRY of a block: the sum over `k` of the softmax weight of `(p, k)` times the matrix at `(k, q)`
    (the change of format on the way into the product is the identity on extended reals). -/
theorem payload_apply (x0 : Vec Ideal S5000x128 .f32) (x1 : Vec Ideal S128x128 .f32) (p : Fin 5000) (q : Fin 128) :
    Gen.k0_pay1 (F := Ideal) x0 x1 (ix2 p q) = ∑ k : Fin 128, blockSoft x0 p k * x1 (ix2 k q) := by
  unfold Gen.k0_pay1
  refine (matmul_zero_apply _ _ p q).trans ?_
  refine Finset.sum_congr rfl fun k _ => ?_
  refine (congrArg₂ (· * ·) (narrow_div_apply _ _ _ (ix2 p k)) (narrow_apply x1 _ (ix2 k q))).trans ?_
  refine congrArg (· * x1 (ix2 k q)) ?_
  unfold blockSoft
  refine congrArg₂ Ideal.div ?_ ?_
  · exact exp_entry x0 _ _ p k
  · refine (column_spread_apply _ p k).trans ?_
    refine (Cert.Lib.multiReduction_add_row _ reduces_S5000x128_S5000 _ _ p).trans ?_
    exact Finset.sum_congr rfl fun j _ => exp_entry x0 _ _ p j

/-! ## A block of rows against the whole array -/

/-- A block's softmax weights are the array's: when row `p` of the block is row `r` of the array, the weight of `(p, k)` in the
    block is the weight of `(r, k)` in the array, because a row's shift and its sum of exponentials depend on that row alone. -/
theorem blockSoft_eq_soft (X : FVec Ideal ⟨2, ![50000, 128]⟩ .f32) (x0 : FVec Ideal S5000x128 .f32) (p : Fin 5000) (r : Fin 50000)
    (h : ∀ j : Fin 128, x0 (ix2 p j) = X (ix2 r j)) (k : Fin 128) : blockSoft x0 p k = Cert.Spec.soft X r k := by
  have hf : (fun j : Fin 128 => x0 (ix2 p j)) = fun j : Fin 128 => X (ix2 r j) := funext h
  have hs : blockShift x0 p = Cert.Spec.rowShift X r := by
    unfold blockShift Cert.Spec.rowShift
    rw [hf]
  have he : ∀ j : Fin 128, blockExp x0 p j = Cert.Spec.expShift X r j := fun j => by
    unfold blockExp Cert.Spec.expShift
    rw [h j, hs]
  unfold blockSoft Cert.Spec.soft
  rw [he k, Finset.sum_congr rfl fun j _ => he j]

/-- THE BODY'S RESULT ON A BLOCK IS THE STAGE'S RESULT ON THE ARRAY: when row `p` of the left block is row `r` of the array and
    column `q` of the right block is column `q` of the matrix, entry `(p, q)` of the body's result is entry `(r, q)` of
    `softmax(X) · W`. -/
theorem block_value (X : FVec Ideal ⟨2, ![50000, 128]⟩ .f32) (W : FVec Ideal ⟨2, ![128, 128]⟩ .f32)
    (x0 : Vec Ideal S5000x128 .f32) (x1 : Vec Ideal S128x128 .f32) (p : Fin 5000) (q : Fin 128) (r : Fin 50000)
    (h0 : ∀ k : Fin 128, x0 (ix2 p k) = X (ix2 r k)) (h1 : ∀ k : Fin 128, x1 (ix2 k q) = W (ix2 k q)) :
    Gen.k0_pay1 (F := Ideal) x0 x1 (ix2 p q) = Cert.Spec.softmaxMatmul X W (ix2 r q) := by
  rw [payload_apply]
  show _ = ∑ k : Fin 128, Cert.Spec.soft X r k * W (ix2 k q)
  exact Finset.sum_congr rfl fun k _ => by rw [blockSoft_eq_soft X x0 p r h0 k, h1 k]

/-! ## From the blocks to the array -/

-- the buffer contents when the region is entered: a parameter of everything below
variable (V : (c : Dev nD) → (b : Ref sig .tc) → Buf (Elt Ideal) ((c : Thread nD τ).loc b))

/-- The body's accesses are at offset zero of their buffers. -/
theorem zero_offsets : (![0, 0] : Fin 2 → Nat) = fun _ => 0 := funext fun a => by fin_cases a <;> rfl

/-- The block indices along the grid, decided over its ten points: at point `t` the rows window and the output window are at block
    `(t, 0)`, the matrix window at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows `[5000 t, 5000 t + 5000)` of `softmax(x) · w` of the arrays as the region finds them. -/
theorem flushed_eq (c : Dev nD) (t : Fin cfg0.N) :
    (Gen.dat0 (F := Ideal) V c).flushed 2 t
      = ((cfg0.win 2).blk t).view.read (Elt Ideal) (Cert.Spec.softmaxMatmul (V c main_arg0) (V c main_arg3)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x128) zero_offsets, View.ld_unit_zero (S := S128x128) zero_offsets]
  obtain ⟨e00, e01, e10, e11, e20, e21⟩ := block_indices t
  have ht : t.val < grid0.N := t.isLt
  rw [N_0] at ht
  funext j
  obtain ⟨p, q, rfl⟩ : ∃ (p : Fin 5000) (q : Fin 128), j = ix2 p q := ⟨j 0, j 1, eq_ix2 j⟩
  have hr : 5000 * t.val + p.val < 50000 := by have := p.isLt; omega
  have hi : ((cfg0.win 2).blk t).view.emb (ix2 p q) = ix2 (⟨5000 * t.val + p.val, hr⟩ : Fin 50000) q := by
    funext a; apply Fin.ext
    match a with
    | ⟨0, _⟩ => show win0_2.index t (0 : Fin 2) * 5000 + 1 * p.val = 5000 * t.val + p.val; rw [e20]; omega
    | ⟨1, _⟩ => show win0_2.index t (1 : Fin 2) * 128 + 1 * q.val = q.val; rw [e21]; omega
  show Gen.k0_pay1 (F := Ideal) (iblk0 V c 0 t) (iblk0 V c 1 t) (ix2 p q)
    = Cert.Spec.softmaxMatmul (V c main_arg0) (V c main_arg3) (((cfg0.win 2).blk t).view.emb (ix2 p q))
  rw [hi]
  refine block_value (V c main_arg0) (V c main_arg3) (iblk0 V c 0 t) (iblk0 V c 1 t) p q ⟨5000 * t.val + p.val, hr⟩
    (fun k => ?_) (fun k => ?_)
  · -- row `p` of the rows block at point `t` is row `5000 t + p` of the array
    show V c main_arg0 (((cfg0.win 0).blk t).view.emb (ix2 p k)) = V c main_arg0 (ix2 (⟨5000 * t.val + p.val, hr⟩ : Fin 50000) k)
    refine congrArg (V c main_arg0) ?_
    funext a; apply Fin.ext
    match a with
    | ⟨0, _⟩ => show win0_0.index t (0 : Fin 2) * 5000 + 1 * p.val = 5000 * t.val + p.val; rw [e00]; omega
    | ⟨1, _⟩ => show win0_0.index t (1 : Fin 2) * 128 + 1 * k.val = k.val; rw [e01]; omega
  · -- the matrix block is the whole matrix at every point
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- An entry of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- THE BLOCKS COVER THE ARRAY: row `r` is in the block of point `r / 5000`, and every point writes its block back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < grid0.N := by rw [N_0]; omega
  obtain ⟨-, -, -, -, e20, e21⟩ := block_indices ⟨(i 0).val / 5000, hN⟩
  have e20' : win0_2.index ⟨(i 0).val / 5000, hN⟩ (0 : Fin 2) = (i 0).val / 5000 := e20
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    omega

/-- REGION 0'S OUTPUT ARRAY after the ten points: `softmax(x) · w` of the two input arrays as the region finds them, entry by
    entry — each point writes rows `[5000 t, 5000 t + 5000)` of it and the ten blocks cover the array. -/
theorem arr0 (c : Dev nD) :
    (Gen.dat0 (F := Ideal) V c).arrAt 2 cfg0.N = Cert.Spec.softmaxMatmul (V c main_arg0) (V c main_arg3) :=
  (Gen.dat0 (F := Ideal) V c).arrAt_eq_of_cover 2 (Cert.Spec.softmaxMatmul (V c main_arg0) (V c main_arg3))
    (fun t _ => flushed_eq V c t) covered

end Cert.KernelIdeal.Region0
end
-- ==== Proof.Region1.lean ====
/-
  REGION 1's output array as one whole-array function.

  The second tiled region walks a grid of ten points. At point `t` it holds rows `5000 t … 5000 t + 4999` of the
  `[50000, 128]` input, the whole `[1, 128]` bias row and the whole `[128, 64]` weight matrix, and it stores one
  `[5000, 64]` block into rows `5000 t … 5000 t + 4999` of the output. Entry `(p, q)` of the stored block is
  `∑ k, max (x0 (p, k) + x1 (0, k)) 0 * x2 (k, q)`: the two casts are to the same shape, the bias row is broadcast over
  the 5000 rows, the rounding of both factors to the narrower format is the identity on the extended reals, and the
  product accumulates into a zero block (`payload_apply`). Read through the windows, the input block's row `p` is the
  array's row `5000 t + p` and the other two blocks are their arrays, so what point `t` writes back is block `t` of
  `Cert.Spec.reluBiasMatmul` of the three arrays as the region finds them (`writeBack_eq`). Row `r` of the output lies
  in the block of the point whose block row is `r / 5000` (`row_covered`), so after the ten write-backs the output array IS
  that function (`arr1`). Everything is stated at arbitrary entry contents `V`.
-/
import proofs.«107329_j9895604650407_1_alg».proof.Proof.Gen.KernelIdeal.Frame
import proofs.«107329_j9895604650407_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

/-! ## The body's stored block at an entry -/

/-- The bias row broadcast over the rows of a block: entry `(p, k)` of the broadcast is entry `(0, k)` of the row. -/
theorem biasRow_apply {α : Type} (v : S1x128.Idx → α) (h : S1x128.Broadcasts S5000x128) (p : Fin 5000) (k : Fin 128) :
    broadcastTo S5000x128 v h (ix2 p k) = v (ix2 (0 : Fin 1) k) := by
  refine broadcastTo_apply v h (ix2 p k) (ix2 (0 : Fin 1) k) fun ax => ?_
  match ax with
  | ⟨0, _⟩ => rfl
  | ⟨1, _⟩ => rfl

/-- The product's left factor at output index `i` and contraction index `c` sits in row `i 0`, … -/
theorem lhs_row (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … in the column the contraction coordinate names; -/
theorem lhs_col (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- the right factor in the row the contraction coordinate names, … -/
theorem rhs_row (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- … in column `i 1`. -/
theorem rhs_col (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The `[5000, 128] × [128, 64]` block product into a zero accumulator, at `(p, q)`: the sum over the 128 contraction
    coordinates of the left factor at `(p, k)` times the right factor at `(k, q)` (the one-axis contraction index is its
    coordinate, and the sum is re-indexed through that bijection). -/
theorem blockProduct_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- THE BODY AT AN ENTRY. Entry `(p, q)` of the block the body stores is the sum over `k` of
    `max (x0 (p, k) + x1 (0, k)) 0` times `x2 (k, q)`: the two casts are to the same shape, the bias row is broadcast over
    the rows, the rounding to the narrower format is the identity on the extended reals, and the product accumulates into
    zero. -/
theorem payload_apply (x0 : Vec Ideal S5000x128 .f32) (x1 : Vec Ideal S1x128 .f32) (x2 : Vec Ideal S128x64 .f32)
    (p : Fin 5000) (q : Fin 64) :
    Gen.k1_pay1 (F := Ideal) x0 x1 x2 (ix2 p q)
      = ∑ k : Fin 128, max (x0 (ix2 p k) + x1 (ix2 (0 : Fin 1) k)) (Ideal.ofBits .f32 0x00000000#32) * x2 (ix2 k q) := by
  unfold Gen.k1_pay1
  refine (blockProduct_apply _ _ p q).trans ?_
  refine Finset.sum_congr rfl fun k _ => ?_
  show max (shapeCast S5000x128 x0 shapeCasts_S5000x128_S5000x128 (ix2 p k)
      + broadcastTo S5000x128 (shapeCast S1x128 x1 shapeCasts_S1x128_S1x128) broadcasts_S1x128_S5000x128 (ix2 p k))
      (Ideal.ofBits .f32 0x00000000#32) * x2 (ix2 k q) = _
  rw [shapeCast_self, biasRow_apply, shapeCast_self]

/-- ONE BLOCK'S ENTRY FROM THE ARRAYS' ENTRIES, over plain vectors. If the input block's row `p` is row `5000 n + p` of
    `A` (`h0`), the bias block is `B` along its one row (`h1`) and the weight block is `W` (`h2`), then the stored block at
    `y` is the whole-array function at the index `i` whose row is `5000 n + y 0` and whose column is `y 1`. -/
theorem block_entry (A : FVec Ideal ⟨2, ![50000, 128]⟩ .f32) (B : FVec Ideal ⟨2, ![1, 128]⟩ .f32) (W : FVec Ideal ⟨2, ![128, 64]⟩ .f32)
    (x0 : Vec Ideal S5000x128 .f32) (x1 : Vec Ideal S1x128 .f32) (x2 : Vec Ideal S128x64 .f32) (n : ℕ)
    (h0 : ∀ (p : Fin 5000) (k : Fin 128) (r : Fin 50000), r.val = n * 5000 + p.val → x0 (ix2 p k) = A (ix2 r k))
    (h1 : ∀ k : Fin 128, x1 (ix2 (0 : Fin 1) k) = B (ix2 (0 : Fin 1) k))
    (h2 : ∀ (k : Fin 128) (q : Fin 64), x2 (ix2 k q) = W (ix2 k q))
    (y : S5000x64.Idx) (i : S50000x64.Idx) (hi0 : (i 0).val = n * 5000 + (y 0).val) (hi1 : (i 1).val = (y 1).val) :
    Gen.k1_pay1 (F := Ideal) x0 x1 x2 y = Cert.Spec.reluBiasMatmul A (fun k => B (ix2 (0 : Fin 1) k)) W i := by
  obtain ⟨p, q, rfl⟩ : ∃ (p : Fin 5000) (q : Fin 64), y = ix2 p q := ⟨y 0, y 1, eq_ix2 y⟩
  rw [payload_apply]
  unfold Cert.Spec.reluBiasMatmul
  refine Finset.sum_congr rfl fun k _ => ?_
  rw [h0 p k (i 0) hi0, h1 k, h2 k q]
  exact congrArg (fun j => max (A (ix2 (i 0) k) + B (ix2 (0 : Fin 1) k)) (Ideal.ofBits .f32 0x00000000#32) * W j)
    (funext fun a => Fin.ext (by
      match a with
      | ⟨0, _⟩ => rfl
      | ⟨1, _⟩ => exact hi1.symm))

/-! ## From the blocks to the array -/

variable (V : (c : Dev nD) → (b : Ref sig .tc) → Buf (Elt Ideal) ((c : Thread nD τ).loc b)) (c : Dev nD)

/-- The four windows' arrays: the `[50000, 128]` input, the bias row, the weight matrix, the `[50000, 64]` output. -/
theorem arr_input : Pipeline.arrRef spec1 0 = main_v45 := rfl
theorem arr_bias : Pipeline.arrRef spec1 1 = main_v46 := rfl
theorem arr_weight : Pipeline.arrRef spec1 2 = main_arg5 := rfl
theorem arr_output : Pipeline.arrRef spec1 3 = main_v47 := rfl

/-- Zero offsets on both axes, however they are spelt. -/
theorem zeroOffsets : (![0, 0] : Fin 2 → Nat) = fun _ => 0 := funext fun a => by fin_cases a <;> rfl

/-- What the output array ends holding: the bias-add, maximum with zero and product of the three arrays as the region
    finds them. -/
abbrev result : S50000x64.Idx → EReal :=
  Cert.Spec.reluBiasMatmul (V c main_v45) (fun k => V c main_v46 (ix2 (0 : Fin 1) k)) (V c main_arg5)

/-- The block indices, decided over the ten points: the input's block row is the output's and its block column is 0;
    the bias row's and the weight matrix's one block is block `(0, 0)` at every point; the output's block row is at most 9
    and its block column is 0. -/
theorem blockIndex_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- WHAT POINT `t` WRITES BACK is block `t` of `result`: the body stores its block through the whole staging buffer, each
    input block is its array read where the window puts it (a block's coordinate on an axis is the block index times the
    block's extent plus the coordinate inside the block), and `block_entry` joins the two. -/
theorem writeBack_eq (t : Fin cfg1.N) :
    (Gen.dat1 (F := Ideal) V c).flushed 3 t = ((cfg1.win 3).blk t).view.read (Elt Ideal) (result V c) := by
  show (cfg1.win 3).cut (grid1.coords t) ((Gen.dat1 (F := Ideal) V c).after 3 t) = _
  rw [Gen.after1_3]
  unfold Gen.out1_3
  rw [View.canon_unit_zero zeroOffsets]
  simp only [View.ld_unit_zero (S := S5000x128) zeroOffsets, View.ld_unit_zero (S := S1x128) zeroOffsets, View.ld_unit_zero (S := S128x64) zeroOffsets]
  funext j
  obtain ⟨e00, e01, e10, e11, e20, e21, e30, e31⟩ := blockIndex_facts t
  show Gen.k1_pay1 (F := Ideal) (Gen.iblk1 V c 0 t) (Gen.iblk1 V c 1 t) (Gen.iblk1 V c 2 t) j
    = result V c (((cfg1.win 3).blk t).view.emb j)
  refine block_entry (V c main_v45) (V c main_v46) (V c main_arg5) (Gen.iblk1 V c 0 t) (Gen.iblk1 V c 1 t) (Gen.iblk1 V c 2 t)
    (win1_3.index t (0 : Fin 2)) ?_ ?_ ?_ j (((cfg1.win 3).blk t).view.emb j) ?_ ?_
  · -- the input block's row `p` is the array's row `5000 · (block row) + p`
    intro p k r hr
    show V c main_v45 (((cfg1.win 0).blk t).view.emb (ix2 p k)) = V c main_v45 (ix2 r k)
    refine congrArg (V c main_v45) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · -- the bias block is the bias row
    intro k
    show V c main_v46 (((cfg1.win 1).blk t).view.emb (ix2 (0 : Fin 1) k)) = V c main_v46 (ix2 (0 : Fin 1) k)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · -- the weight block is the weight matrix
    intro k q
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · -- the output block's row `y 0` is the array's row `5000 · (block row) + y 0`
    show win1_3.index t (0 : Fin 2) * 5000 + 1 * (j 0).val = win1_3.index t (0 : Fin 2) * 5000 + (j 0).val; omega
  · show win1_3.index t (1 : Fin 2) * 64 + 1 * (j 1).val = (j 1).val; omega

/-- Every block row `0 … 9` of the output is some grid point's, its block column 0. -/
theorem blockRow_onto : ∀ q0 : Fin 10, ∃ t : Fin cfg1.N, win1_3.index t = ![q0.val, 0] :=
  (by decide +kernel : ∀ q0 : Fin 10, ∃ t : Fin grid1.N, win1_3.index t = ![q0.val, 0])

/-- An index of the output array is in point `t`'s block iff each coordinate is in the block's range on its axis. -/
theorem mem_rowBlock (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- THE BLOCKS COVER THE ARRAY: row `r` of the output is in the block of the point whose block row is `r / 5000`, and
    every point writes its block back. -/
theorem row_covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := blockRow_onto ⟨(i 0).val / 5000, by omega⟩
  have q0 : win1_3.index t (0 : Fin 2) = (i 0).val / 5000 := congrFun ht 0
  have q1 : win1_3.index t (1 : Fin 2) = 0 := congrFun ht 1
  refine ⟨t, Gen.flush1_3 t, ?_⟩
  rw [mem_rowBlock]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- REGION 1'S OUTPUT ARRAY after its ten write-backs: `max (a + b) 0 · w` of the `[50000, 128]` array `a`, the bias row
    `b` and the weight matrix `w` as the region finds them, index by index — every point writes its block of that function
    and the blocks cover the array. -/
theorem arr1 :
    (Gen.dat1 (F := Ideal) V c).arrAt 3 cfg1.N
      = Cert.Spec.reluBiasMatmul (V c main_v45) (fun k => V c main_v46 (ix2 (0 : Fin 1) k)) (V c main_arg5) :=
  (Gen.dat1 (F := Ideal) V c).arrAt_eq_of_cover 3 (result V c) (fun t _ => writeBack_eq V c t) row_covered

end Cert.KernelIdeal.Region1

end
-- ==== Proof.Result.lean ====
/-
  The whole computation as ONE function of the seven arguments, on the extended reals: the node features `x`, the edge
  list `ei`, the edge weights `ew`, and the two layers' weights and biases. The first dense stage (row softmax times
  `w1`) is aggregated along the edges with the symmetric degree normalisation; the second dense stage (bias `b1`, maximum
  with zero, times `w2`) of that aggregate is aggregated the same way, and the output bias `b2` is added. Both programs
  are shown to compute this function.
-/
import proofs.«107329_j9895604650407_1_alg».proof.Proof.Spec
import proofs.«107329_j9895604650407_1_alg».proof.Proof.Glue

noncomputable section

open Idealize.ShloMosaic Cert.KernelIdeal

namespace Cert.Result

/-- The two-layer graph convolution of `softmax x`: `Â (max (Â (softmax x · w1) + b1, 0) · w2) + b2`, where `Â` aggregates along
    the edges with the coefficient `dinv[row] · w · dinv[col]` per edge. -/
def gcn2 (x : (⟨S50000x128, .f32⟩ : BufTy).Contents (Elt Ideal)) (ei : (⟨S2x800000, .i32⟩ : BufTy).Contents (Elt Ideal)) (ew : (⟨S800000, .f32⟩ : BufTy).Contents (Elt Ideal)) (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S50000x64, .f32⟩ : BufTy).Contents (Elt Ideal) :=
  Cert.Glue.outOf (Cert.Glue.col ei) (Cert.Glue.norm ei ew) (Cert.Glue.row ei)
    (Cert.Spec.reluBiasMatmul
      (Cert.Glue.agg128Of (Cert.Glue.col ei) (Cert.Glue.norm ei ew) (Cert.Glue.row ei) (Cert.Spec.softmaxMatmul x w1))
      (fun k => b1 (ValueIdx.ix1 k)) w2)
    b2

end Cert.Result

end
-- ==== Proof.KernelValue.lean ====
/-
  The idealized kernel program computes the two-layer graph convolution: the last boundary's contents at the result
  buffer are the output aggregation of the second tiled region's array; that array is the second dense stage of what the
  region finds in its input arrays — the first aggregation, the bias row, the second weight matrix —; the first
  aggregation is that of the first tiled region's array, which is the first dense stage of the node features and the
  first weight matrix as launched.
-/
import proofs.«107329_j9895604650407_1_alg».proof.Proof.KernelGlue
import proofs.«107329_j9895604650407_1_alg».proof.Proof.Region0
import proofs.«107329_j9895604650407_1_alg».proof.Proof.Region1
import proofs.«107329_j9895604650407_1_alg».proof.Proof.Result

set_option maxRecDepth 16384

noncomputable section

namespace Cert.KernelIdeal.KernelValue

open Idealize.ShloMosaic Idealize.ShloMosaic.TcCoe Idealize.SL.Sem Cert.KernelIdeal Cert.KernelIdeal.Gen

/-- The kernel program's result, as a function of its launch memory, is `gcn2` of its seven argument arrays. -/
theorem result_eq (m : (ℓ : Loc nD τ sig) → Buf (Elt Ideal) ℓ) (ρ : Dev nD → PrngReg) (c : Dev nD) :
    W7 (F := Ideal) m ρ c (Proc.devRef .tc main_v63)
      = Cert.Result.gcn2 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [Cert.KernelIdeal.KGlue.W7_main_v63, Cert.KernelIdeal.Region1.arr1, Cert.KernelIdeal.KGlue.V5_main_v45,
    Cert.KernelIdeal.Region0.arr0, Cert.KernelIdeal.KGlue.V3_main_arg0, Cert.KernelIdeal.KGlue.V3_main_arg3,
    Cert.KernelIdeal.KGlue.V5_main_arg5]
  unfold Cert.Result.gcn2
  have hb : (fun k : Fin 128 => V5 (F := Ideal) m ρ c main_v46 (ValueIdx.ix2 (0 : Fin 1) k))
      = fun k : Fin 128 => (m ((c.tc : Thread nD τ).loc main_arg4)) (ValueIdx.ix1 k) :=
    funext fun k => Cert.KernelIdeal.KGlue.V5_main_v46_apply m ρ c k
  rw [hb]

end Cert.KernelIdeal.KernelValue

end
-- ==== Proof.RefGlue.lean ====
/-
  The reference's host side read as the shared glue functions. Its first aggregation is the aggregation of its own
  first dense stage (the row softmax times the first weight matrix) with the edge coefficients computed from the edge
  list and the edge weights; its result is the second aggregation, with the output bias, of its own second dense stage.
  The reference computes the degrees and the edge coefficients a second time for its second layer, from the same
  operands by the same operations: the same function of the edge list and the weights, so both layers use `norm`.
-/
import proofs.«107329_j9895604650407_1_alg».proof.Proof.Gen.ReferenceIdeal.Read
import proofs.«107329_j9895604650407_1_alg».proof.Proof.Glue

set_option maxRecDepth 16384

noncomputable section

namespace Cert.ReferenceIdeal.RefGlue

open Idealize.ShloMosaic Cert.ReferenceIdeal Cert.ReferenceIdeal.Read

variable {F : FTy → Type} [FloatOps F]

/-- The first layer's aggregate is `agg128Of` of the first dense stage. -/
theorem agg_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S128x128, .f32⟩ : BufTy).Contents (Elt F)) :
    val_main_v56 (F := F) x0 x1 x2 x3
      = Cert.Glue.agg128Of (Cert.Glue.col x1) (Cert.Glue.norm x1 x2) (Cert.Glue.row x1) (val_main_v20 (F := F) x0 x3) := rfl

/-- The result is `outOf` of the second dense stage and the output bias. -/
theorem out_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S128x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) :
    val_main_v100 (F := F) x0 x1 x2 x3 x4 x5 x6
      = Cert.Glue.outOf (Cert.Glue.col x1) (Cert.Glue.norm x1 x2) (Cert.Glue.row x1) (val_main_v61 (F := F) x0 x1 x2 x3 x4 x5) x6 := rfl

end Cert.ReferenceIdeal.RefGlue

end
-- ==== Proof.RefStages.lean ====
/-
  The reference's two dense stages are the specification's functions.

  Stage one. The reference computes, for an array `x` of 50000 rows and 128 columns, the row maximum (a fold of `max`
  from −∞ over the columns), its maximum with −∞, the difference `x (r, k) − shift r`, its exponential, the sum of a
  row's exponentials (from the initial value zero), the quotient of each exponential by its row's sum, and the product of
  the quotients with a 128 × 128 matrix. Read at an index, each of these is the specification's `rowShift`, `expShift`,
  the row sum of `expShift`, `soft`, and `softmaxMatmul`: a keep-dimension broadcast of a per-row value reads, at
  `(r, k)`, the value of row `r`; the host's exponential and quotient are the extended reals' own; the zero word is `0`.

  Stage two. The reference adds a bias row to an array `a` (the value of a scatter, which stays an opaque term here),
  takes the maximum with a broadcast zero, and multiplies by a 128 × 64 matrix: entry `(r, c)` is the sum over `k` of
  `max (a (r, k) + b k) 0 · w (k, c)`, the specification's `reluBiasMatmul`.
-/
import proofs.«107329_j9895604650407_1_alg».proof.Proof.Gen.ReferenceIdeal.Read
import proofs.«107329_j9895604650407_1_alg».proof.Proof.Spec
import proofs.«107329_j9895604650407_1_alg».proof.Proof.LibColumn
import Idealize.ShloMosaic.Lib.ValueIdx
import Idealize.ShloMosaic.PureOps.Ideal.Laws

noncomputable section

namespace Cert.ReferenceIdeal.RefStages

open Cert.ReferenceIdeal Cert.ReferenceIdeal.Gen Idealize.ShloMosaic Idealize.ShloMosaic.TcCoe Idealize.SL.Sem Idealize.ShloMosaic.StableHlo
open Idealize.ShloMosaic.ValueIdx

/-- The reference's shift of row `p`: the larger of −∞ and the fold of `max` from −∞ over the row's 128 entries. -/
theorem shift_eq (x0 : (⟨S50000x128, .f32⟩ : BufTy).Contents (Elt Ideal)) (p : Fin 50000) :
    Read.val_main_v11 (F := Ideal) x0 (ix1 p) = Cert.Spec.rowShift x0 p := by
  rw [Read.val_main_v11_apply, Read.val_main_v10_apply, Read.val_main_cst_1_apply]
  unfold Read.val_main_v9
  rw [Cert.Lib.hostReduce_max_row x0 (Read.val_main_cst_0 (F := Ideal)) reducesTo_S50000x128_S50000_d1 (by decide) h_S_ p,
    Read.val_main_cst_0_apply]
  simp only [Ideal.maximumf_def, Ideal.ofBits_def]
  rfl

/-- The reference's exponential at `(p, k)`: the shift is broadcast along the row, so the entry is `exp (x (p, k) − shift p)`. -/
theorem expShift_eq (x0 : (⟨S50000x128, .f32⟩ : BufTy).Contents (Elt Ideal)) (p : Fin 50000) (k : Fin 128) :
    Read.val_main_v15 (F := Ideal) x0 (ix2 p k) = Cert.Spec.expShift x0 p k := by
  have e : Read.idx_main_v12 (Read.idx_main_v13 (ix2 p k)) = ix1 p :=
    funext fun a => Fin.ext (by match a with | ⟨0, _⟩ => rfl)
  rw [Read.val_main_v15_apply, Read.val_main_v14_apply, Read.val_main_v13_apply, Read.val_main_v12_apply, e, shift_eq]
  simp only [Ideal.hostUnary_exp_def, Ideal.subf_def]
  rfl

/-- The reference's sum over row `p` of the exponentials, from the initial value zero. -/
theorem expSum_eq (x0 : (⟨S50000x128, .f32⟩ : BufTy).Contents (Elt Ideal)) (p : Fin 50000) :
    Read.val_main_v16 (F := Ideal) x0 (ix1 p) = ∑ j : Fin 128, Cert.Spec.expShift x0 p j := by
  rw [Read.val_main_v16_apply, Read.val_main_cst_2_apply]
  simp only [Ideal.ofBits_def, Ideal.ofBits_zero_f32, zero_add]
  refine Finset.sum_congr rfl fun k _ => ?_
  have e : Read.idx_main_v16 (ix1 p) k = ix2 p k :=
    funext fun a => Fin.ext (by match a with | ⟨0, _⟩ => rfl | ⟨1, _⟩ => rfl)
  rw [e, expShift_eq]

/-- The reference's quotient at `(p, k)`: the row sum is broadcast along the row, so the entry is the softmax weight. -/
theorem soft_eq (x0 : (⟨S50000x128, .f32⟩ : BufTy).Contents (Elt Ideal)) (p : Fin 50000) (k : Fin 128) :
    Read.val_main_v19 (F := Ideal) x0 (ix2 p k) = Cert.Spec.soft x0 p k := by
  have e : Read.idx_main_v17 (Read.idx_main_v18 (ix2 p k)) = ix1 p :=
    funext fun a => Fin.ext (by match a with | ⟨0, _⟩ => rfl)
  rw [Read.val_main_v19_apply, Read.val_main_v18_apply, Read.val_main_v17_apply, e, expSum_eq, expShift_eq]
  simp only [Ideal.hostDivf_def]
  rfl

/-- Stage one of the reference is `softmaxMatmul`. -/
theorem softmaxMatmul_eq (x0 : (⟨S50000x128, .f32⟩ : BufTy).Contents (Elt Ideal)) (x3 : (⟨S128x128, .f32⟩ : BufTy).Contents (Elt Ideal)) :
    Read.val_main_v20 (F := Ideal) x0 x3 = Cert.Spec.softmaxMatmul x0 x3 := by
  funext i
  obtain ⟨p, q, rfl⟩ : ∃ (p : Fin 50000) (q : Fin 128), i = ix2 p q := ⟨i 0, i 1, eq_ix2 i⟩
  rw [Read.val_main_v20_apply]
  unfold Cert.Spec.softmaxMatmul
  refine Finset.sum_congr rfl fun k _ => ?_
  have el : Read.lidx_main_v20 (ix2 p q) k = ix2 p k :=
    funext fun a => Fin.ext (by match a with | ⟨0, _⟩ => rfl | ⟨1, _⟩ => rfl)
  have er : Read.ridx_main_v20 (ix2 p q) k = ix2 k q :=
    funext fun a => Fin.ext (by match a with | ⟨0, _⟩ => rfl | ⟨1, _⟩ => rfl)
  rw [el, er, soft_eq]

/-- Stage two of the reference is `reluBiasMatmul` of the scatter's value, the bias row and the second matrix. -/
theorem reluBiasMatmul_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) :
    Read.val_main_v61 (F := Ideal) x0 x1 x2 x3 x4 x5
      = Cert.Spec.reluBiasMatmul (Read.val_main_v56 (F := Ideal) x0 x1 x2 x3) (fun k => x4 (ix1 k)) x5 := by
  funext i
  obtain ⟨p, q, rfl⟩ : ∃ (p : Fin 50000) (q : Fin 64), i = ix2 p q := ⟨i 0, i 1, eq_ix2 i⟩
  rw [Read.val_main_v61_apply]
  unfold Cert.Spec.reluBiasMatmul
  refine Finset.sum_congr rfl fun k _ => ?_
  have el : Read.lidx_main_v61 (ix2 p q) k = ix2 p k :=
    funext fun a => Fin.ext (by match a with | ⟨0, _⟩ => rfl | ⟨1, _⟩ => rfl)
  have er : Read.ridx_main_v61 (ix2 p q) k = ix2 k q :=
    funext fun a => Fin.ext (by match a with | ⟨0, _⟩ => rfl | ⟨1, _⟩ => rfl)
  have eb : Read.idx_main_v57 (Read.idx_main_v58 (ix2 p k)) = ix1 k :=
    funext fun a => Fin.ext (by match a with | ⟨0, _⟩ => rfl)
  rw [el, er, Read.val_main_v60_apply, Read.val_main_v59_apply]
  generalize Read.val_main_v56 (F := Ideal) x0 x1 x2 x3 = a
  rw [Read.val_main_v58_apply, Read.val_main_v57_apply, eb, Read.val_main_call1_v0_apply, Read.val_main_call1_cst_apply]
  simp only [Ideal.maximumf_def, Ideal.addf_def, Ideal.ofBits_def]

end Cert.ReferenceIdeal.RefStages

end
-- ==== Proof.RefValue.lean ====
/-
  The reference computes the two-layer graph convolution: its result term is the shared glue around its two dense
  stages, and its two dense stages are the specification's functions.
-/
import proofs.«107329_j9895604650407_1_alg».proof.Proof.RefGlue
import proofs.«107329_j9895604650407_1_alg».proof.Proof.RefStages
import proofs.«107329_j9895604650407_1_alg».proof.Proof.Result

set_option maxRecDepth 16384

noncomputable section

namespace Cert.ReferenceIdeal.RefValue

open Idealize.ShloMosaic Idealize.ShloMosaic.TcCoe Idealize.SL.Sem Cert.ReferenceIdeal Cert.ReferenceIdeal.Read

/-- The reference's result, as a function of its launch memory, is `gcn2` of its seven argument arrays. -/
theorem result_eq (m : (ℓ : Loc nD τ sig) → Buf (Elt Ideal) ℓ) (c : Dev nD) :
    Cert.ReferenceIdeal.Value.res_main_v100 (F := Ideal) m c
      = Cert.Result.gcn2 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [val_main_v100_eq, Cert.ReferenceIdeal.RefGlue.out_eq, Cert.ReferenceIdeal.RefStages.reluBiasMatmul_eq,
    Cert.ReferenceIdeal.RefGlue.agg_eq, Cert.ReferenceIdeal.RefStages.softmaxMatmul_eq]
  rfl

end Cert.ReferenceIdeal.RefValue

end
-- ==== Proof.lean ====
/-
  The certificate of a two-layer graph convolution on 50000 nodes and 850000 edges (800000 given edges and one self
  loop per node). Both programs compute, on the extended reals,
      Â (max (Â (softmax x · w1) + b1, 0) · w2) + b2,
  where `Â` adds, into each edge's target row, the edge's source row scaled by `dinv[source] · weight · dinv[target]`, and
  `dinv` is the inverse square root of a node's weighted in-degree where that is positive and zero elsewhere.
  The kernel program computes the two dense stages — the row softmax times `w1`, and the bias, the maximum with zero and
  the product with `w2` — in two tiled regions of ten blocks of 5000 rows each, and everything else by host operations;
  the reference computes everything by host operations, and the degree normalisation twice. The host operations around
  the dense stages are literally the same terms on both sides (Glue, KernelGlue, RefGlue); a tiled region's output array
  is the dense stage's function of its input arrays, index by index, because a block of rows of the output depends
  only on the same rows of the input, a lane maximum or sum over a row is the host's reduce over that row, and a
  matrix product into a zero accumulator is the host's contraction (Region0, Region1, RefStages). No step uses that the
  inputs are finite: the two sides are the same expression at every index, sums in the same order.
-/
import proofs.«107329_j9895604650407_1_alg».proof.Defs
import proofs.«107329_j9895604650407_1_alg».proof.Proof.Gen.Kernel
import proofs.«107329_j9895604650407_1_alg».proof.Proof.Gen.Kernel.Skeleton
import proofs.«107329_j9895604650407_1_alg».proof.Proof.Gen.Kernel.Launch
import proofs.«107329_j9895604650407_1_alg».proof.Proof.Gen.Kernel.Points
import proofs.«107329_j9895604650407_1_alg».proof.Proof.Gen.Kernel.Frame
import proofs.«107329_j9895604650407_1_alg».proof.Proof.Gen.KernelIdeal
import proofs.«107329_j9895604650407_1_alg».proof.Proof.Gen.KernelIdeal.Skeleton
import proofs.«107329_j9895604650407_1_alg».proof.Proof.Gen.KernelIdeal.Launch
import proofs.«107329_j9895604650407_1_alg».proof.Proof.Gen.KernelIdeal.Points
import proofs.«107329_j9895604650407_1_alg».proof.Proof.Gen.KernelIdeal.Frame
import proofs.«107329_j9895604650407_1_alg».proof.Proof.Gen.ReferenceIdeal
import proofs.«107329_j9895604650407_1_alg».proof.Proof.Gen.Pre_finite_inputs
import proofs.«107329_j9895604650407_1_alg».proof.Proof.Gen.ReferenceIdeal.Run
import proofs.«107329_j9895604650407_1_alg».proof.Proof.Gen.ReferenceIdeal.Read
import proofs.«107329_j9895604650407_1_alg».proof.Proof.KernelRun
import proofs.«107329_j9895604650407_1_alg».proof.Proof.KernelValue
import proofs.«107329_j9895604650407_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both idealized programs end with the two-layer graph convolution
    `gcn2` of those arguments as their result. -/
theorem algebraic : Cert.algebraic_KernelIdeal_ReferenceIdeal := by
  intro m ρ m' ρ' _ hagree
  refine ⟨fun c => Cert.Result.gcn2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
